-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S28x1 : Shape := ⟨2, ![28, 1]⟩
abbrev S512x28 : Shape := ⟨2, ![512, 28]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S28x1 : S_.BroadcastsInDim S28x1 (![] : Fin 0 → Fin S28x1.rank)
  reducesTo_S28x1_S_d0_1 : S28x1.ReducesTo [0, 1] S_
  bcast_S_S512x28 : S_.BroadcastsInDim S512x28 (![] : Fin 0 → Fin S512x28.rank)
  reducesTo_S512x28_S_d0_1 : S512x28.ReducesTo [0, 1] S_

variable [Facts]

def fn {F : FTy → Type} [FloatOps F] (main_arg0 : FVec F S131072x512 .f32) (main_arg1 : FVec F S28x1 .f32) (main_arg2 : FVec F S512x28 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S28x1 .f32 := Host.absf main_arg1
  let main_cst_0 : FVec F S_ .f32 := constant S_ .f32 0x7F800000#32
  let main_v5 : FVec F S28x1 .f32 := broadcastInDim S28x1 ![] bcast_S_S28x1 main_cst_0
  let main_v6 : IVec S28x1 1 := cmpf .olt main_v4 main_v5
  let main_c_1 : IVec S_ 1 := constantI S_ 1 1#1
  let main_v7 : IVec S_ 1 := (fun x v => Host.reduce IntOp.andi x v reducesTo_S28x1_S_d0_1 h_S_) main_v6 main_c_1
  let main_v8 : IVec S_ 1 := andi main_v3 main_v7
  let main_v9 : FVec F S512x28 .f32 := Host.absf main_arg2
  let main_cst_2 : FVec F S_ .f32 := constant S_ .f32 0x7F800000#32
  let main_v10 : FVec F S512x28 .f32 := broadcastInDim S512x28 ![] bcast_S_S512x28 main_cst_2
  let main_v11 : IVec S512x28 1 := cmpf .olt main_v9 main_v10
  let main_c_3 : IVec S_ 1 := constantI S_ 1 1#1
  let main_v12 : IVec S_ 1 := (fun x v => Host.reduce IntOp.andi x v reducesTo_S512x28_S_d0_1 h_S_) main_v11 main_c_3
  let main_v13 : IVec S_ 1 := andi main_v8 main_v12
  main_v13
-- ==== Kernel.lean ====
abbrev S131072x512 : Shape := ⟨2, ![131072, 512]⟩
abbrev S28x1 : Shape := ⟨2, ![28, 1]⟩
abbrev S512x28 : Shape := ⟨2, ![512, 28]⟩
abbrev S131072x1 : Shape := ⟨2, ![131072, 1]⟩
abbrev S131072x28 : Shape := ⟨2, ![131072, 28]⟩
abbrev S4096x512 : Shape := ⟨2, ![4096, 512]⟩
abbrev S4096x1 : Shape := ⟨2, ![4096, 1]⟩
abbrev S4096x28 : Shape := ⟨2, ![4096, 28]⟩
abbrev S1x28 : Shape := ⟨2, ![1, 28]⟩
abbrev S4096 : Shape := ⟨1, ![4096]⟩
abbrev S131072x1x28 : Shape := ⟨3, ![131072, 1, 28]⟩

abbrev nBuf : Space → Nat
  | .hbm => 6
  | .vmem => 8
  | .smem => 0
  | _ => 0

abbrev bufTy : (tb : Table) → Fin (tcTables nBuf tb) → BufTy
  | .hbm, ⟨0, _⟩ => ⟨S131072x512, .f32⟩
  | .hbm, ⟨1, _⟩ => ⟨S28x1, .f32⟩
  | .hbm, ⟨2, _⟩ => ⟨S512x28, .f32⟩
  | .hbm, ⟨3, _⟩ => ⟨S131072x1, .f32⟩
  | .hbm, ⟨4, _⟩ => ⟨S131072x28, .f32⟩
  | .hbm, ⟨5, _⟩ => ⟨S131072x1x28, .f32⟩
  | .local _ .vmem, ⟨0, _⟩ => ⟨S4096x512, .f32⟩
  | .local _ .vmem, ⟨1, _⟩ => ⟨S4096x512, .f32⟩
  | .local _ .vmem, ⟨2, _⟩ => ⟨S512x28, .f32⟩
  | .local _ .vmem, ⟨3, _⟩ => ⟨S28x1, .f32⟩
  | .local _ .vmem, ⟨4, _⟩ => ⟨S4096x1, .f32⟩
  | .local _ .vmem, ⟨5, _⟩ => ⟨S4096x1, .f32⟩
  | .local _ .vmem, ⟨6, _⟩ => ⟨S4096x28, .f32⟩
  | .local _ .vmem, ⟨7, _⟩ => ⟨S4096x28, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S28x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x28 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x28_S512x28_0_0 : ∀ a, (![0, 0] : Fin 2 → Nat) a + S512x28.size a ≤ S512x28.size a
  h_S512x28 : 0 < S512x28.numel
  inb_S28x1_S28x1_0_0 : ∀ a, (![0, 0] : Fin 2 → Nat) a + S28x1.size a ≤ S28x1.size a
  h_S28x1 : 0 < S28x1.numel
  transposes_S28x1_p1_0_S1x28 : S28x1.Transposes [1, 0] S1x28
  broadcasts_S1x28_S4096x28 : S1x28.Broadcasts S4096x28
  reduces_S4096x28_S4096 : S4096x28.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  inb_S4096x28_S4096x28_0_0 : ∀ a, (![0, 0] : Fin 2 → Nat) a + S4096x28.size a ≤ S4096x28.size a
  h_S4096x28 : 0 < S4096x28.numel
  bcast_S131072x28_S131072x1x28_0_2 : S131072x28.BroadcastsInDim S131072x1x28 (![0, 2] : Fin 2 → Fin S131072x1x28.rank)
  dot_S4096x512_S512x28_S4096x28_1_0_0_1_n_n_wf : DotDims.WF S4096x512 S512x28 S4096x28 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x28.size a ≤ S512x28.size a
  hwx0_1 : ∀ i : grid0.Coords, EltTy.bits .f32 = 32 ∨ (Rect.block (s := S512x28) S512x28.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S28x1.size a ≤ S28x1.size a
  hwx0_2 : ∀ i : grid0.Coords, EltTy.bits .f32 = 32 ∨ (Rect.block (s := S28x1) S28x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S131072x1.size a
  hwx0_3 : ∀ i : grid0.Coords, EltTy.bits .f32 = 32 ∨ (Rect.block (s := S131072x1) S4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x28.size a ≤ S131072x28.size a
  hwx0_4 : ∀ i : grid0.Coords, EltTy.bits .f32 = 32 ∨ (Rect.block (s := S131072x28) S4096x28.size (cc0_transform_4 i) (hinb0_4 i)).WholeWords (EltTy.packing .f32)

variable [Facts₀]

def dot_S4096x512_S512x28_S4096x28_1_0_0_1_n_n : DotDims S4096x512 S512x28 S4096x28 where
  lhsContracting := [1]
  rhsContracting := [0]
  lhsNonContracting := [0]
  rhsNonContracting := [1]
  lhsBatch := []
  rhsBatch := []
  wf := dot_S4096x512_S512x28_S4096x28_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x28.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S28x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S4096x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S4096x28.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x512 : Shape := ⟨2, ![131072, 512]⟩
abbrev S28x1 : Shape := ⟨2, ![28, 1]⟩
abbrev S512x28 : Shape := ⟨2, ![512, 28]⟩
abbrev S131072x28 : Shape := ⟨2, ![131072, 28]⟩
abbrev S131072x1 : Shape := ⟨2, ![131072, 1]⟩
abbrev S131072x1x28 : Shape := ⟨3, ![131072, 1, 28]⟩

abbrev nBuf : Space → Nat
  | .hbm => 6
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S28x1, .f32⟩
  | .hbm, ⟨2, _⟩ => ⟨S512x28, .f32⟩
  | .hbm, ⟨3, _⟩ => ⟨S131072x28, .f32⟩
  | .hbm, ⟨4, _⟩ => ⟨S131072x1, .f32⟩
  | .hbm, ⟨5, _⟩ => ⟨S131072x1x28, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S131072x28_S131072x1x28_0_2 : S131072x28.BroadcastsInDim S131072x1x28 (![0, 2] : Fin 2 → Fin S131072x1x28.rank)
  dot_S131072x512_S512x28_S131072x28_1_0_0_1_n_n_wf : DotDims.WF S131072x512 S512x28 S131072x28 [1] [0] [0] [1] [] []
  dot_S131072x28_S28x1_S131072x1_1_0_0_1_n_n_wf : DotDims.WF S131072x28 S28x1 S131072x1 [1] [0] [0] [1] [] []

variable [Facts₀]

def dot_S131072x512_S512x28_S131072x28_1_0_0_1_n_n : DotDims S131072x512 S512x28 S131072x28 where
  lhsContracting := [1]
  rhsContracting := [0]
  lhsNonContracting := [0]
  rhsNonContracting := [1]
  lhsBatch := []
  rhsBatch := []
  wf := dot_S131072x512_S512x28_S131072x28_1_0_0_1_n_n_wf
def dot_S131072x28_S28x1_S131072x1_1_0_0_1_n_n : DotDims S131072x28 S28x1 S131072x1 where
  lhsContracting := [1]
  rhsContracting := [0]
  lhsNonContracting := [0]
  rhsNonContracting := [1]
  lhsBatch := []
  rhsBatch := []
  wf := dot_S131072x28_S28x1_S131072x1_1_0_0_1_n_n_wf

class Facts : Prop extends Facts₀ where

variable [Facts]
-- ==== Proof.Spec.lean ====
/-
  The two results as functions of the three argument arrays, index by index, on the extended reals.

  With `th` the 131072 × 512 array of feature rows, `w` the 512 × 28 weights and `ph` the 28 × 1 column:
  the projection of row `r` on column `j` is `∑ k, th (r, k) · w (k, j)`, and the score of row `r` is
  `∑ j, (∑ k, th (r, k) · w (k, j)) · ph (j, 0)`. Both programs compute exactly these two nested sums, in the
  same nesting, so no law of the extended reals beyond reading each operation at an index is needed, and the
  finiteness of the inputs is never used.
-/
import Idealize.ShloMosaic.PureOps.Ideal
import Idealize.ShloMosaic.Lib.ValueIdx

noncomputable section

namespace Cert.DenseScore

open Idealize.ShloMosaic Idealize.ShloMosaic.ValueIdx

/-- Row `r` of `th` against column `j` of `w`. -/
def projAt (th : (⟨2, ![131072, 512]⟩ : Shape).Idx → EReal) (w : (⟨2, ![512, 28]⟩ : Shape).Idx → EReal)
    (r : Fin 131072) (j : Fin 28) : EReal :=
  ∑ k : Fin 512, th (ix2 r k) * w (ix2 k j)

/-- The score of row `r`: its 28 projections against the column `ph`. -/
def scoreAt (th : (⟨2, ![131072, 512]⟩ : Shape).Idx → EReal) (w : (⟨2, ![512, 28]⟩ : Shape).Idx → EReal)
    (ph : (⟨2, ![28, 1]⟩ : Shape).Idx → EReal) (r : Fin 131072) : EReal :=
  ∑ j : Fin 28, projAt th w r j * ph (ix2 j (0 : Fin 1))

/-- The 131072 × 28 array of projections. -/
def proj (th : (⟨2, ![131072, 512]⟩ : Shape).Idx → EReal) (w : (⟨2, ![512, 28]⟩ : Shape).Idx → EReal) :
    (⟨2, ![131072, 28]⟩ : Shape).Idx → EReal :=
  fun i => projAt th w (i 0) (i 1)

/-- The 131072 × 1 array of scores. -/
def score (th : (⟨2, ![131072, 512]⟩ : Shape).Idx → EReal) (w : (⟨2, ![512, 28]⟩ : Shape).Idx → EReal)
    (ph : (⟨2, ![28, 1]⟩ : Shape).Idx → EReal) : (⟨2, ![131072, 1]⟩ : Shape).Idx → EReal :=
  fun i => scoreAt th w ph (i 0)

end Cert.DenseScore

end
-- ==== Proof.RefSpec.lean ====
/-
  The reference computes the specification: its first product is the array of projections, its second product
  the column of scores. Each host product read at an index is a sum over its one contracted axis; the operand
  indices it names are the pairs (row, k) and (k, column), and the second product's left operand is the first
  product itself, so its sum is the nested sum of the specification term by term.
-/
import proofs.«142063_j2473901163258_2_alg».proof.Proof.Gen.ReferenceIdeal.Read
import proofs.«142063_j2473901163258_2_alg».proof.Proof.Spec

noncomputable section

namespace Cert.ReferenceIdeal.RefValue

open Cert.ReferenceIdeal Cert.ReferenceIdeal.Read Cert.DenseScore
open Idealize.ShloMosaic Idealize.ShloMosaic.ValueIdx

/-- The first product's left operand index at output (r, c) and contraction coordinate k is (r, k). -/
theorem lidx_v0 (i : S131072x28.Idx) (k : Fin 512) : lidx_main_v0 i k = ix2 (i 0) k :=
  funext fun a => Fin.ext (by match a with | ⟨0, _⟩ => rfl | ⟨1, _⟩ => rfl)

/-- Its right operand index is (k, c). -/
theorem ridx_v0 (i : S131072x28.Idx) (k : Fin 512) : ridx_main_v0 i k = ix2 k (i 1) :=
  funext fun a => Fin.ext (by match a with | ⟨0, _⟩ => rfl | ⟨1, _⟩ => rfl)

/-- The second product's left operand index at output (r, 0) and contraction coordinate j is (r, j). -/
theorem lidx_v1 (i : S131072x1.Idx) (j : Fin 28) : lidx_main_v1 i j = ix2 (i 0) j :=
  funext fun a => Fin.ext (by match a with | ⟨0, _⟩ => rfl | ⟨1, _⟩ => rfl)

/-- Its right operand index is (j, 0): the output's second axis has extent one. -/
theorem ridx_v1 (i : S131072x1.Idx) (j : Fin 28) : ridx_main_v1 i j = ix2 j (0 : Fin 1) :=
  funext fun a => Fin.ext (by
    match a with
    | ⟨0, _⟩ => rfl
    | ⟨1, _⟩ => exact Nat.lt_one_iff.mp (i 1).isLt)

/-- The first host product is the array of projections. -/
theorem ref_proj (x0 : (⟨S131072x512, .f32⟩ : BufTy).Contents (Elt Ideal)) (x2 : (⟨S512x28, .f32⟩ : BufTy).Contents (Elt Ideal)) :
    val_main_v0 (F := Ideal) x0 x2 = proj x0 x2 := by
  funext i
  rw [val_main_v0_apply]
  show _ = ∑ k : Fin 512, x0 (ix2 (i 0) k) * x2 (ix2 k (i 1))
  refine Finset.sum_congr rfl fun k _ => ?_
  rw [lidx_v0, ridx_v0]
  rfl

/-- The second host product is the column of scores. -/
theorem ref_score (x0 : (⟨S131072x512, .f32⟩ : BufTy).Contents (Elt Ideal)) (x1 : (⟨S28x1, .f32⟩ : BufTy).Contents (Elt Ideal))
    (x2 : (⟨S512x28, .f32⟩ : BufTy).Contents (Elt Ideal)) :
    val_main_v1 (F := Ideal) x0 x1 x2 = score x0 x2 x1 := by
  funext i
  rw [val_main_v1_apply]
  show _ = ∑ j : Fin 28, projAt x0 x2 (i 0) j * x1 (ix2 j (0 : Fin 1))
  refine Finset.sum_congr rfl fun j _ => ?_
  rw [lidx_v1, ridx_v1, ref_proj]
  rfl

end Cert.ReferenceIdeal.RefValue

end
-- ==== Proof.Payload.lean ====
/-
  What one grid point's body computes from its three loaded blocks, read at an index on the extended reals.

  The block of projections: the matrix product into a zero accumulator of the 4096 × 512 block of rows with the
  whole 512 × 28 weights (the two roundings to a narrower format are the identity here) is, at (p, q), the sum
  over k of row-block (p, k) times weights (k, q).
  The block of scores: the 28 × 1 column is transposed to a row, the row repeated down the 4096 rows, multiplied
  entry by entry with the block of projections, summed along each row, and the 4096 sums laid out as a column;
  at (p, 0) that is the sum over j of projection (p, j) times column (j, 0).
-/
import proofs.«142063_j2473901163258_2_alg».proof.Proof.Gen.KernelIdeal.Skeleton
import proofs.«142063_j2473901163258_2_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Payload

open Cert.KernelIdeal Cert.KernelIdeal.Gen
open Idealize.ShloMosaic Idealize.ShloMosaic.ValueIdx

/-- The left operand of the block product at output (p, q) reads its first axis at p. -/
theorem lhs_0 (i : S4096x28.Idx) (q : dot_S4096x512_S512x28_S4096x28_1_0_0_1_n_n.contr.Idx) :
    (dot_S4096x512_S512x28_S4096x28_1_0_0_1_n_n.lhsIdx i q 0).val = (i 0).val := by
  unfold DotDims.lhsIdx
  rw [dif_neg (show ¬(0 : Fin S4096x512.rank) ∈ dot_S4096x512_S512x28_S4096x28_1_0_0_1_n_n.lhsBatch by decide), dif_pos (show (0 : Fin S4096x512.rank) ∈ dot_S4096x512_S512x28_S4096x28_1_0_0_1_n_n.lhsNonContracting by decide)]
  rfl

/-- The right operand reads its second axis at q. -/
theorem rhs_1 (i : S4096x28.Idx) (q : dot_S4096x512_S512x28_S4096x28_1_0_0_1_n_n.contr.Idx) :
    (dot_S4096x512_S512x28_S4096x28_1_0_0_1_n_n.rhsIdx i q 1).val = (i 1).val := by
  unfold DotDims.rhsIdx
  rw [dif_neg (show ¬(1 : Fin S512x28.rank) ∈ dot_S4096x512_S512x28_S4096x28_1_0_0_1_n_n.rhsBatch by decide), dif_pos (show (1 : Fin S512x28.rank) ∈ dot_S4096x512_S512x28_S4096x28_1_0_0_1_n_n.rhsNonContracting by decide)]
  rfl

/-- The block of projections at (p, q): row p of the row block against column q of the weights. -/
theorem pay1_apply (x0 : Vec Ideal S4096x512 .f32) (x1 : Vec Ideal S512x28 .f32) (p : Fin 4096) (q : Fin 28) :
    k0_pay1 (F := Ideal) x0 x1 (ix2 p q) = ∑ k : Fin 512, x0 (ix2 p k) * x1 (ix2 k q) := by
  unfold k0_pay1
  refine (Ideal.matmul_constant_zero_apply dot_S4096x512_S512x28_S4096x28_1_0_0_1_n_n none _ _ (ix2 p q)).trans ?_
  rw [← Equiv.sum_comp (contrEquiv1 dot_S4096x512_S512x28_S4096x28_1_0_0_1_n_n 512 rfl rfl).symm]
  refine Finset.sum_congr rfl fun k _ => ?_
  have hk := contrEquiv1_symm_val dot_S4096x512_S512x28_S4096x28_1_0_0_1_n_n 512 rfl rfl k
  have el : dot_S4096x512_S512x28_S4096x28_1_0_0_1_n_n.lhsIdx (ix2 p q) ((contrEquiv1 dot_S4096x512_S512x28_S4096x28_1_0_0_1_n_n 512 rfl rfl).symm k) = ix2 p k := funext fun a => Fin.ext (by
    match a with
    | ⟨0, _⟩ => exact lhs_0 _ _
    | ⟨1, _⟩ => exact (dot_S4096x512_S512x28_S4096x28_1_0_0_1_n_n.lhsIdx_val_of_single rfl _ _).trans hk)
  have er : dot_S4096x512_S512x28_S4096x28_1_0_0_1_n_n.rhsIdx (ix2 p q) ((contrEquiv1 dot_S4096x512_S512x28_S4096x28_1_0_0_1_n_n 512 rfl rfl).symm k) = ix2 k q := funext fun a => Fin.ext (by
    match a with
    | ⟨0, _⟩ => exact (dot_S4096x512_S512x28_S4096x28_1_0_0_1_n_n.rhsIdx_val_of_single rfl _ _).trans hk
    | ⟨1, _⟩ => exact rhs_1 _ _)
  show x0 (dot_S4096x512_S512x28_S4096x28_1_0_0_1_n_n.lhsIdx (ix2 p q) _) * x1 (dot_S4096x512_S512x28_S4096x28_1_0_0_1_n_n.rhsIdx (ix2 p q) _) = _
  rw [el, er]

/-- A sum along the rows of a 4096 × 28 block, read at row p: the 28 entries of that row added. -/
theorem rowsum_apply (v : FVec Ideal S4096x28 .f32) (p : Fin 4096) :
    multiReduction .add [1] S4096 v 0x00000000#32 reduces_S4096x28_S4096 (.inl rfl) rfl (ix1 p) = ∑ j : Fin 28, v (ix2 p j) := by
  refine (Ideal.multiReduction_add_single v 0x00000000#32 reduces_S4096x28_S4096 _ _ (ix1 p)).trans ?_
  refine Finset.sum_congr rfl fun j _ => congrArg v ?_
  exact funext fun a => Fin.ext (by match a with | ⟨0, _⟩ => rfl | ⟨1, _⟩ => rfl)

/-- The column, transposed to a row and repeated down the rows, read at (p, j): the column's entry (j, 0). -/
theorem phiRow_apply (x2 : Vec Ideal S28x1 .f32) (p : Fin 4096) (j : Fin 28) :
    broadcastTo S4096x28 (transpose S1x28 [1, 0] x2 transposes_S28x1_p1_0_S1x28) broadcasts_S1x28_S4096x28 (ix2 p j) = x2 (ix2 j (0 : Fin 1)) :=
  (broadcastTo_1b_ab_apply _ broadcasts_S1x28_S4096x28 p j).trans (transpose_ix2_apply x2 transposes_S28x1_p1_0_S1x28 (0 : Fin 1) j)

/-- The block of scores at (p, 0): the 28 projections of row p against the column. -/
theorem pay2_apply (x0 : Vec Ideal S4096x512 .f32) (x1 : Vec Ideal S512x28 .f32) (x2 : Vec Ideal S28x1 .f32) (p : Fin 4096) :
    k0_pay2 (F := Ideal) x0 x1 x2 (ix2 p (0 : Fin 1))
      = ∑ j : Fin 28, (∑ k : Fin 512, x0 (ix2 p k) * x1 (ix2 k j)) * x2 (ix2 j (0 : Fin 1)) := by
  unfold k0_pay2
  refine (shapeCast_apply _ shapeCasts_S4096_S4096x1 (ix2 p (0 : Fin 1)) (ix1 p) ?_).trans ?_
  · rw [Shape.rowMajor_val_one, Shape.rowMajor_val_two]
    show p.val = p.val * 1 + 0
    omega
  refine (rowsum_apply _ p).trans ?_
  refine Finset.sum_congr rfl fun j _ => ?_
  exact congrArg₂ (· * ·) (pay1_apply x0 x1 p j) (phiRow_apply x2 p j)

end Cert.KernelIdeal.Payload

end
-- ==== Proof.Blocks.lean ====
/-
  From grid points to whole arrays. The grid has 32 points; point t loads rows 4096·t … 4096·t + 4095 of the
  feature rows, the whole weights and the whole column, and writes back rows 4096·t … 4096·t + 4095 of both
  results. So what point t writes back is block t of ONE function of the argument arrays — the array of
  projections for the second result, the column of scores for the first — and since the 32 row blocks tile
  the 131072 rows, each result array ends holding that function everywhere.
-/
import proofs.«142063_j2473901163258_2_alg».proof.Proof.Gen.KernelIdeal.Frame
import proofs.«142063_j2473901163258_2_alg».proof.Proof.Payload
import proofs.«142063_j2473901163258_2_alg».proof.Proof.Spec
import Idealize.ShloMosaic.Lib.Pipeline.Value
import Idealize.ShloMosaic.Lib.Tactic

noncomputable section

namespace Cert.KernelIdeal.Blocks

open Cert.KernelIdeal Cert.KernelIdeal.Gen Cert.KernelIdeal.Payload Cert.DenseScore
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-block windows (the feature rows and both results) sit at block
    row t, block column 0; the weights and the column always at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## One point's blocks against the whole arrays, over variables -/

/-- If a 4096 × 512 block is rows 4096·t … of `A0` and a 512 × 28 block is all of `A2`, the block of projections
    computed from them is, entry by entry, the array of projections of `A0` and `A2` at the same rows. -/
theorem blockProj (A0 : (⟨2, ![131072, 512]⟩ : Shape).Idx → EReal) (A2 : (⟨2, ![512, 28]⟩ : Shape).Idx → EReal)
    (x0 : Vec Ideal S4096x512 .f32) (x1 : Vec Ideal S512x28 .f32) (t : Nat) (ht : t < 32)
    (h0 : ∀ (p : Fin 4096) (k : Fin 512), x0 (ix2 p k) = A0 (ix2 (⟨t * 4096 + p.val, by omega⟩ : Fin 131072) k))
    (h1 : ∀ (k : Fin 512) (q : Fin 28), x1 (ix2 k q) = A2 (ix2 k q))
    (p : Fin 4096) (q : Fin 28) (i : (⟨2, ![131072, 28]⟩ : Shape).Idx)
    (hi0 : (i 0).val = t * 4096 + p.val) (hi1 : (i 1).val = q.val) :
    k0_pay1 (F := Ideal) x0 x1 (ix2 p q) = proj A0 A2 i := by
  rw [pay1_apply]
  show _ = ∑ k : Fin 512, A0 (ix2 (i 0) k) * A2 (ix2 k (i 1))
  have e0 : (⟨t * 4096 + p.val, by omega⟩ : Fin 131072) = i 0 := Fin.ext hi0.symm
  have e1 : q = i 1 := Fin.ext hi1.symm
  refine Finset.sum_congr rfl fun k _ => ?_
  rw [h0, h1, e0, e1]

/-- The same for the block of scores, with the 28 × 1 block all of `A1`. -/
theorem blockScore (A0 : (⟨2, ![131072, 512]⟩ : Shape).Idx → EReal) (A2 : (⟨2, ![512, 28]⟩ : Shape).Idx → EReal)
    (A1 : (⟨2, ![28, 1]⟩ : Shape).Idx → EReal)
    (x0 : Vec Ideal S4096x512 .f32) (x1 : Vec Ideal S512x28 .f32) (x2 : Vec Ideal S28x1 .f32) (t : Nat) (ht : t < 32)
    (h0 : ∀ (p : Fin 4096) (k : Fin 512), x0 (ix2 p k) = A0 (ix2 (⟨t * 4096 + p.val, by omega⟩ : Fin 131072) k))
    (h1 : ∀ (k : Fin 512) (q : Fin 28), x1 (ix2 k q) = A2 (ix2 k q))
    (h2 : ∀ j : Fin 28, x2 (ix2 j (0 : Fin 1)) = A1 (ix2 j (0 : Fin 1)))
    (p : Fin 4096) (i : (⟨2, ![131072, 1]⟩ : Shape).Idx) (hi0 : (i 0).val = t * 4096 + p.val) :
    k0_pay2 (F := Ideal) x0 x1 x2 (ix2 p (0 : Fin 1)) = score A0 A2 A1 i := by
  rw [pay2_apply]
  show _ = ∑ j : Fin 28, (∑ k : Fin 512, A0 (ix2 (i 0) k) * A2 (ix2 k j)) * A1 (ix2 j (0 : Fin 1))
  have e0 : (⟨t * 4096 + p.val, by omega⟩ : Fin 131072) = i 0 := Fin.ext hi0.symm
  refine Finset.sum_congr rfl fun j _ => ?_
  rw [h2]
  refine congrArg (· * A1 (ix2 j (0 : Fin 1))) ?_
  refine Finset.sum_congr rfl fun k _ => ?_
  rw [h0, h1, e0]

/-! ## The input windows' blocks read off the arrays -/

/-- The feature rows' block at point t is rows 4096·t … 4096·t + 4095 of the array. -/
theorem rows_apply (c : Dev nD) (t : Fin cfg0.N) (p : Fin 4096) (k : Fin 512) (ht : t.val < 32) :
    (iblk m c 0 t : Vec Ideal S4096x512 .f32) (ix2 p k)
      = (V m c main_arg0 : S131072x512.Idx → EReal) (ix2 (⟨t.val * 4096 + p.val, by omega⟩ : Fin 131072) k) := by
  obtain ⟨e0, e1, -⟩ := idx_facts t
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 512 + 1 * k.val = k.val; rw [e1]; omega

/-- The weights' block at every point is the whole array. -/
theorem weights_apply (c : Dev nD) (t : Fin cfg0.N) (k : Fin 512) (q : Fin 28) :
    (iblk m c 1 t : Vec Ideal S512x28 .f32) (ix2 k q) = (V m c main_arg2 : S512x28.Idx → EReal) (ix2 k q) := by
  obtain ⟨-, -, e2, e3, -⟩ := idx_facts t
  show V m c main_arg2 (((cfg0.win 1).blk t).view.emb (ix2 k q)) = V m c main_arg2 _
  refine congrArg (V m c main_arg2) (funext fun a => Fin.ext ?_)
  match a with
  | ⟨0, _⟩ => show win0_1.index t (0 : Fin 2) * 512 + 1 * k.val = k.val; rw [e2]; omega
  | ⟨1, _⟩ => show win0_1.index t (1 : Fin 2) * 28 + 1 * q.val = q.val; rw [e3]; omega

/-- The column's block at every point is the whole array. -/
theorem column_apply (c : Dev nD) (t : Fin cfg0.N) (j : Fin 28) :
    (iblk m c 2 t : Vec Ideal S28x1 .f32) (ix2 j (0 : Fin 1)) = (V m c main_arg1 : S28x1.Idx → EReal) (ix2 j (0 : Fin 1)) := by
  obtain ⟨-, -, -, -, e4, e5, -⟩ := idx_facts t
  show V m c main_arg1 (((cfg0.win 2).blk t).view.emb (ix2 j (0 : Fin 1))) = V m c main_arg1 _
  refine congrArg (V m c main_arg1) (funext fun a => Fin.ext ?_)
  match a with
  | ⟨0, _⟩ => show win0_2.index t (0 : Fin 2) * 28 + 1 * j.val = j.val; rw [e4]; omega
  | ⟨1, _⟩ => show win0_2.index t (1 : Fin 2) * 1 + 1 * 0 = 0; rw [e5]

/-! ## What each point writes back -/

/-- Point t writes back block t of the array of projections of the argument arrays. -/
theorem flushed_proj (c : Dev nD) (t : Fin cfg0.N) :
    (dats m 0 c).flushed 4 t = ((cfg0.win 4).blk t).view.read (Elt Ideal) (proj (V m c main_arg0) (V m c main_arg2)) := by
  have ht : t.val < 32 := by have h := t.isLt; have hN : cfg0.N = 32 := N_0; omega
  show (cfg0.win 4).cut (grid0.coords t) ((dats m 0 c).after 4 t) = _
  rw [after0_4]
  unfold out0_4
  rw [View.canon_unit_zero hz]
  simp only [View.ld_unit_zero (S := S4096x512) hz, View.ld_unit_zero (S := S512x28) hz]
  obtain ⟨-, -, -, -, -, -, -, -, e8, e9⟩ := idx_facts t
  funext j
  obtain ⟨p, q, rfl⟩ : ∃ (p : Fin 4096) (q : Fin 28), j = ix2 p q := ⟨j 0, j 1, eq_ix2 j⟩
  show k0_pay1 (F := Ideal) (iblk m c 0 t) (iblk m c 1 t) (ix2 p q)
    = proj (V m c main_arg0) (V m c main_arg2) (((cfg0.win 4).blk t).view.emb (ix2 p q))
  refine blockProj (V m c main_arg0) (V m c main_arg2) (iblk m c 0 t) (iblk m c 1 t) t.val ht
    (fun p k => rows_apply m c t p k ht) (fun k q => weights_apply m c t k q) p q _ ?_ ?_
  · show win0_4.index t (0 : Fin 2) * 4096 + 1 * p.val = t.val * 4096 + p.val; rw [e8]; omega
  · show win0_4.index t (1 : Fin 2) * 28 + 1 * q.val = q.val; rw [e9]; omega

/-- Point t writes back block t of the column of scores of the argument arrays. -/
theorem flushed_score (c : Dev nD) (t : Fin cfg0.N) :
    (dats m 0 c).flushed 3 t
      = ((cfg0.win 3).blk t).view.read (Elt Ideal) (score (V m c main_arg0) (V m c main_arg2) (V m c main_arg1)) := by
  have ht : t.val < 32 := by have h := t.isLt; have hN : cfg0.N = 32 := N_0; omega
  show (cfg0.win 3).cut (grid0.coords t) ((dats m 0 c).after 3 t) = _
  rw [after0_3]
  unfold out0_3
  rw [View.canon_unit_zero hz]
  simp only [View.ld_unit_zero (S := S4096x512) hz, View.ld_unit_zero (S := S512x28) hz, View.ld_unit_zero (S := S28x1) hz]
  obtain ⟨-, -, -, -, -, -, e6, e7, -⟩ := idx_facts t
  funext j
  have hj1 : j 1 = (0 : Fin 1) := Fin.ext (Nat.lt_one_iff.mp (j 1).isLt)
  obtain ⟨p, rfl⟩ : ∃ p : Fin 4096, j = ix2 p (0 : Fin 1) :=
    ⟨j 0, (eq_ix2 j).trans (congrArg (fun z : Fin 1 => ix2 (j 0) z) hj1)⟩
  show k0_pay2 (F := Ideal) (iblk m c 0 t) (iblk m c 1 t) (iblk m c 2 t) (ix2 p (0 : Fin 1))
    = score (V m c main_arg0) (V m c main_arg2) (V m c main_arg1) (((cfg0.win 3).blk t).view.emb (ix2 p (0 : Fin 1)))
  refine blockScore (V m c main_arg0) (V m c main_arg2) (V m c main_arg1) (iblk m c 0 t) (iblk m c 1 t) (iblk m c 2 t) t.val ht
    (fun p k => rows_apply m c t p k ht) (fun k q => weights_apply m c t k q) (fun j => column_apply m c t j) p _ ?_
  show win0_3.index t (0 : Fin 2) * 4096 + 1 * p.val = t.val * 4096 + p.val; rw [e6]; omega

/-! ## The row blocks tile the rows -/

/-- An index of the projections' array is in point t's block iff each coordinate is in the block's range. -/
theorem mem_blk_proj (t : Fin cfg0.N) (i : S131072x28.Idx) :
    i ∈ ((cfg0.win 4).blk t).view.set ↔ ∀ a : Fin 2, win0_4.index t a * S4096x28.size a ≤ (i a).val ∧ (i a).val < win0_4.index t a * S4096x28.size a + S4096x28.size a := by
  show i ∈ ((View.whole main_v0_1).slice (win0_4.rect t)).set ↔ _
  rw [View.set_slice_whole, Rect.mem_set_unit]
  exact Iff.rfl

/-- The same for the scores' array. -/
theorem mem_blk_score (t : Fin cfg0.N) (i : S131072x1.Idx) :
    i ∈ ((cfg0.win 3).blk t).view.set ↔ ∀ a : Fin 2, win0_3.index t a * S4096x1.size a ≤ (i a).val ∧ (i a).val < win0_3.index t a * S4096x1.size a + S4096x1.size a := by
  show i ∈ ((View.whole main_v0_0).slice (win0_3.rect t)).set ↔ _
  rw [View.set_slice_whole, Rect.mem_set_unit]
  exact Iff.rfl

/-- Row r of the projections' array is in the block of point r / 4096. -/
theorem cover_proj (i : S131072x28.Idx) :
    ∃ t : Fin cfg0.N, (cfg0.win 4).flush t = true ∧ i ∈ ((cfg0.win 4).blk t).view.set := by
  have hi0 : (i 0).val < 131072 := (i 0).isLt
  have hi1 : (i 1).val < 28 := (i 1).isLt
  obtain ⟨t, htv⟩ : ∃ t : Fin cfg0.N, t.val = (i 0).val / 4096 :=
    ⟨⟨(i 0).val / 4096, by rw [show cfg0.N = 32 from N_0]; omega⟩, rfl⟩
  obtain ⟨-, -, -, -, -, -, -, -, e8, e9⟩ := idx_facts t
  refine ⟨t, flush0_4 t, ?_⟩
  rw [mem_blk_proj]
  intro a
  match a with
  | ⟨0, _⟩ => show win0_4.index t (0 : Fin 2) * 4096 ≤ (i 0).val ∧ (i 0).val < win0_4.index t (0 : Fin 2) * 4096 + 4096; rw [e8]; omega
  | ⟨1, _⟩ => show win0_4.index t (1 : Fin 2) * 28 ≤ (i 1).val ∧ (i 1).val < win0_4.index t (1 : Fin 2) * 28 + 28; rw [e9]; omega

/-- Row r of the scores' array is in the block of point r / 4096. -/
theorem cover_score (i : S131072x1.Idx) :
    ∃ t : Fin cfg0.N, (cfg0.win 3).flush t = true ∧ i ∈ ((cfg0.win 3).blk t).view.set := by
  have hi0 : (i 0).val < 131072 := (i 0).isLt
  have hi1 : (i 1).val < 1 := (i 1).isLt
  obtain ⟨t, htv⟩ : ∃ t : Fin cfg0.N, t.val = (i 0).val / 4096 :=
    ⟨⟨(i 0).val / 4096, by rw [show cfg0.N = 32 from N_0]; omega⟩, rfl⟩
  obtain ⟨-, -, -, -, -, -, e6, e7, -⟩ := idx_facts t
  refine ⟨t, flush0_3 t, ?_⟩
  rw [mem_blk_score]
  intro a
  match a with
  | ⟨0, _⟩ => show win0_3.index t (0 : Fin 2) * 4096 ≤ (i 0).val ∧ (i 0).val < win0_3.index t (0 : Fin 2) * 4096 + 4096; rw [e6]; omega
  | ⟨1, _⟩ => show win0_3.index t (1 : Fin 2) * 1 ≤ (i 1).val ∧ (i 1).val < win0_3.index t (1 : Fin 2) * 1 + 1; rw [e7]; omega

/-! ## The arrays after the region -/

/-- The second result's array ends holding the array of projections. -/
theorem final_proj (c : Dev nD) :
    (dats m 0 c).arrAt 4 cfg0.N = proj (V m c main_arg0) (V m c main_arg2) :=
  (dats m 0 c).arrAt_eq_of_cover 4 (proj (V m c main_arg0) (V m c main_arg2)) (fun t _ => flushed_proj m c t) cover_proj

/-- The first result's array ends holding the column of scores. -/
theorem final_score (c : Dev nD) :
    (dats m 0 c).arrAt 3 cfg0.N = score (V m c main_arg0) (V m c main_arg2) (V m c main_arg1) :=
  (dats m 0 c).arrAt_eq_of_cover 3 (score (V m c main_arg0) (V m c main_arg2) (V m c main_arg1)) (fun t _ => flushed_score m c t) cover_score

end Cert.KernelIdeal.Blocks

end
-- ==== Proof.KernelRun.lean ====
/-
  The kernel program's run, read: after the region the first result array holds the column of scores, and the
  one host line after the region inserts a unit axis into the array of projections; the three argument arrays
  end as they were launched.
-/
import proofs.«142063_j2473901163258_2_alg».proof.Proof.Blocks
import Idealize.ShloMosaic.Lib.StableHlo.Run

noncomputable section

namespace Cert.KernelIdeal.Blocks

open Cert.KernelIdeal Cert.KernelIdeal.Gen Cert.DenseScore
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The host line after the region reads the second result's array as the region left it — the array of
    projections — and writes it with a unit middle axis inserted. -/
theorem tail_eq (c : Dev nD) :
    Pipeline.afterTail₀ cfgs (dats m) 0 (V0 m) [hostOps1] c main_v1
      = broadcastInDim S131072x1x28 ![0, 2] bcast_S131072x28_S131072x1x28_0_2 (proj (V m c main_arg0) (V m c main_arg2)) := by
  unfold Pipeline.afterTail₀
  show StableHlo.after hostOps1 _ (Proc.devRef .tc main_v1) = _
  after_results
  exact congrArg (broadcastInDim S131072x1x28 ![0, 2] bcast_S131072x28_S131072x1x28_0_2)
    ((Pipeline.withArrays_arr spec0 launch0.win.arr_inj c (V0 m c) (fun w => (dats m 0 c).arrAt w cfg0.N) 4).trans (final_proj m c))

/-- Every weakly fair execution of the kernel program terminates with the first result at the column of scores of
    the launched arguments, the second at their array of projections with the unit axis inserted, and the
    arguments unchanged. -/
theorem run : θ_run defs (onTc (τ := τ) (main (F := Ideal))) ⟨m, fun _ => 0, ρ⟩ fun r => ∀ c : Dev nD,
      r.2.mem ((c : Thread nD τ).loc main_v0_0)
        = score (m ((c : Thread nD τ).loc main_arg0)) (m ((c : Thread nD τ).loc main_arg2)) (m ((c : Thread nD τ).loc main_arg1))
      ∧ r.2.mem ((c : Thread nD τ).loc main_v1)
        = broadcastInDim S131072x1x28 ![0, 2] bcast_S131072x28_S131072x1x28_0_2
            (proj (m ((c : Thread nD τ).loc main_arg0)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final_score m c),
      ((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c)))⟩)
    (run_main m ρ)

end Cert.KernelIdeal.Blocks

end
-- ==== Proof.lean ====
/-
  The kernel against its reference, on the extended reals.

  Both programs compute, from the 131072 × 512 feature rows `th`, the 512 × 28 weights `w` and the 28 × 1 column
  `ph`: the projections `out (r, j) = ∑ k, th (r, k) · w (k, j)`, returned with a unit middle axis inserted, and
  the scores `∑ j, out (r, j) · ph (j, 0)`. The kernel walks the rows in 32 blocks of 4096; per block it forms
  the block of projections by one matrix product into a zero accumulator (its operands' change of format is the
  identity on the extended reals) and the block of scores by multiplying that block with the transposed,
  repeated column and summing along each row. The reference forms both by host matrix products over the whole
  arrays. Read at an index the two sides are the same nested sums in the same nesting (Spec.lean), so the
  equality needs no rearrangement of sums, no distributivity, and therefore nothing of the inputs' finiteness.

  RefSpec.lean: the reference's two products are the specification's two functions. Payload.lean: one grid
  point's two stored values at an index. Blocks.lean: point t writes back block t of each function, and the row
  blocks tile the rows. KernelRun.lean: the host line after the region and the kernel program's run. Here: the
  three frames, the (empty) list of idealization rewrites, and the two runs side by side.
-/
import proofs.«142063_j2473901163258_2_alg».proof.Defs
import proofs.«142063_j2473901163258_2_alg».proof.Proof.Gen.Kernel
import proofs.«142063_j2473901163258_2_alg».proof.Proof.Gen.Kernel.Frame
import proofs.«142063_j2473901163258_2_alg».proof.Proof.Gen.KernelIdeal
import proofs.«142063_j2473901163258_2_alg».proof.Proof.Gen.KernelIdeal.Frame
import proofs.«142063_j2473901163258_2_alg».proof.Proof.Gen.ReferenceIdeal
import proofs.«142063_j2473901163258_2_alg».proof.Proof.Gen.ReferenceIdeal.Run
import proofs.«142063_j2473901163258_2_alg».proof.Proof.Gen.ReferenceIdeal.Read
import proofs.«142063_j2473901163258_2_alg».proof.Proof.Gen.Pre_finite_inputs
import proofs.«142063_j2473901163258_2_alg».proof.Proof.RefSpec
import proofs.«142063_j2473901163258_2_alg».proof.Proof.KernelRun
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is three host operations: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation of the kernel was rewritten for the reading on the extended reals. -/
theorem preserves : Cert.preserves_Kernel_KernelIdeal := trivial

/-- From memories agreeing on the arguments, the kernel program ends with the column of scores and the array of
    projections (unit axis inserted) of its arguments, and the reference's two host products are those same
    two functions of the same arguments. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2]
    exact Cert.ReferenceIdeal.RefValue.ref_score _ _ _
  · rw [(hagree c).1, (hagree c).2.2]
    exact congrArg (broadcastInDim (s := Cert.KernelIdeal.S131072x28) (α := EReal) Cert.KernelIdeal.S131072x1x28 ![0, 2] Cert.KernelIdeal.Gen.bcast_S131072x28_S131072x1x28_0_2)
      (Cert.ReferenceIdeal.RefValue.ref_proj _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
